-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S2x800000 : Shape := ⟨2, ![2, 800000]⟩
abbrev S96x128 : Shape := ⟨2, ![96, 128]⟩
abbrev S128 : Shape := ⟨1, ![128]⟩
abbrev S128x128 : Shape := ⟨2, ![128, 128]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S96x128 : S_.BroadcastsInDim S96x128 (![] : Fin 0 → Fin S96x128.rank)
  reducesTo_S96x128_S_d0_1 : S96x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x96 .f32) (main_arg1 : IVec S2x800000 32) (main_arg2 : FVec F S96x128 .f32) (main_arg3 : FVec F S128 .f32) (main_arg4 : FVec F S128x128 .f32) (main_arg5 : FVec F S128 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S96x128 .f32 := Host.absf main_arg2
  let main_cst_0 : FVec F S_ .f32 := constant S_ .f32 0x7F800000#32
  let main_v5 : FVec F S96x128 .f32 := broadcastInDim S96x128 ![] bcast_S_S96x128 main_cst_0
  let main_v6 : IVec S96x128 1 := cmpf .olt main_v4 main_v5
  let main_c_1 : IVec S_ 1 := constantI S_ 1 1#1
  let main_v7 : IVec S_ 1 := (fun x v => Host.reduce IntOp.andi x v reducesTo_S96x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S50000x96 : Shape := ⟨2, ![50000, 96]⟩
abbrev S2x800000 : Shape := ⟨2, ![2, 800000]⟩
abbrev S96x128 : Shape := ⟨2, ![96, 128]⟩
abbrev S128 : Shape := ⟨1, ![128]⟩
abbrev S128x128 : Shape := ⟨2, ![128, 128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S2000x96 : Shape := ⟨2, ![2000, 96]⟩
abbrev S2000x128 : Shape := ⟨2, ![2000, 128]⟩
abbrev S850000x128 : Shape := ⟨2, ![850000, 128]⟩
abbrev S1x128 : Shape := ⟨2, ![1, 128]⟩

abbrev nBuf : Space → Nat
  | .hbm => 84
  | .vmem => 20
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S96x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S50000, .f32⟩
  | .hbm, ⟨15, _⟩ => ⟨S_, .i32⟩
  | .hbm, ⟨16, _⟩ => ⟨S850000, .i32⟩
  | .hbm, ⟨17, _⟩ => ⟨S850000, .i1⟩
  | .hbm, ⟨18, _⟩ => ⟨S_, .i32⟩
  | .hbm, ⟨19, _⟩ => ⟨S850000, .i32⟩
  | .hbm, ⟨20, _⟩ => ⟨S850000, .i32⟩
  | .hbm, ⟨21, _⟩ => ⟨S850000, .i32⟩
  | .hbm, ⟨22, _⟩ => ⟨S850000x1, .i32⟩
  | .hbm, ⟨23, _⟩ => ⟨S_, .f32⟩
  | .hbm, ⟨24, _⟩ => ⟨S850000, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .i32⟩
  | .hbm, ⟨67, _⟩ => ⟨S850000, .i32⟩
  | .hbm, ⟨68, _⟩ => ⟨S850000, .i1⟩
  | .hbm, ⟨69, _⟩ => ⟨S_, .i32⟩
  | .hbm, ⟨70, _⟩ => ⟨S850000, .i32⟩
  | .hbm, ⟨71, _⟩ => ⟨S850000, .i32⟩
  | .hbm, ⟨72, _⟩ => ⟨S850000, .i32⟩
  | .hbm, ⟨73, _⟩ => ⟨S850000x1, .i32⟩
  | .hbm, ⟨74, _⟩ => ⟨S850000x128, .f32⟩
  | .hbm, ⟨75, _⟩ => ⟨S850000x1, .f32⟩
  | .hbm, ⟨76, _⟩ => ⟨S850000x128, .f32⟩
  | .hbm, ⟨77, _⟩ => ⟨S850000x128, .f32⟩
  | .hbm, ⟨78, _⟩ => ⟨S_, .f32⟩
  | .hbm, ⟨79, _⟩ => ⟨S50000x128, .f32⟩
  | .hbm, ⟨80, _⟩ => ⟨S850000x1, .i32⟩
  | .hbm, ⟨81, _⟩ => ⟨S50000x128, .f32⟩
  | .hbm, ⟨82, _⟩ => ⟨S1x128, .f32⟩
  | .hbm, ⟨83, _⟩ => ⟨S50000x128, .f32⟩
  | .local _ .vmem, ⟨0, _⟩ => ⟨S2000x96, .f32⟩
  | .local _ .vmem, ⟨1, _⟩ => ⟨S2000x96, .f32⟩
  | .local _ .vmem, ⟨2, _⟩ => ⟨S96x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_6 : Ref sig .tc := ⟨.hbm, 47, rfl⟩
abbrev main_v33 : Ref sig .tc := ⟨.hbm, 48, rfl⟩
abbrev main_v34 : Ref sig .tc := ⟨.hbm, 49, rfl⟩
abbrev main_c_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_c_9 : Ref sig .tc := ⟨.hbm, 66, rfl⟩
abbrev main_v49 : Ref sig .tc := ⟨.hbm, 67, rfl⟩
abbrev main_v50 : Ref sig .tc := ⟨.hbm, 68, rfl⟩
abbrev main_c_10 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_11 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S_S850000 : S_.BroadcastsInDim S850000 (![] : Fin 0 → Fin S850000.rank)
  bcast_S850000_S850000x1_0 : S850000.BroadcastsInDim S850000x1 (![0] : Fin 1 → Fin S850000x1.rank)
  inb_S2000x96_S2000x96_0_0 : ∀ a, (![0, 0] : Fin 2 → Nat) a + S2000x96.size a ≤ S2000x96.size a
  h_S2000x96 : 0 < S2000x96.numel
  bitsLt_bf16_f32 : FTy.bits .bf16 < FTy.bits .f32
  inb_S96x128_S96x128_0_0 : ∀ a, (![0, 0] : Fin 2 → Nat) a + S96x128.size a ≤ S96x128.size a
  h_S96x128 : 0 < S96x128.numel
  inb_S2000x128_S2000x128_0_0 : ∀ a, (![0, 0] : Fin 2 → Nat) a + S2000x128.size a ≤ S2000x128.size a
  h_S2000x128 : 0 < S2000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x96_S96x128_S2000x128_1_0_0_1_n_n_wf : DotDims.WF S2000x96 S96x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x96.size a ≤ S50000x96.size a
  hwx0_0 : ∀ i : grid0.Coords, EltTy.bits .f32 = 32 ∨ (Rect.block (s := S50000x96) S2000x96.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x128.size a ≤ S96x128.size a
  hwx0_1 : ∀ i : grid0.Coords, EltTy.bits .f32 = 32 ∨ (Rect.block (s := S96x128) S96x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .f32 = 32 ∨ (Rect.block (s := S50000x128) S2000x128.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x96_S96x128_S2000x128_1_0_0_1_n_n : DotDims S2000x96 S96x128 S2000x128 where
  lhsContracting := [1]
  rhsContracting := [0]
  lhsNonContracting := [0]
  rhsNonContracting := [1]
  lhsBatch := []
  rhsBatch := []
  wf := dot_S2000x96_S96x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S96x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x96 : Shape := ⟨2, ![50000, 96]⟩
abbrev S2x800000 : Shape := ⟨2, ![2, 800000]⟩
abbrev S96x128 : Shape := ⟨2, ![96, 128]⟩
abbrev S128 : Shape := ⟨1, ![128]⟩
abbrev S128x128 : Shape := ⟨2, ![128, 128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S50000x128 : Shape := ⟨2, ![50000, 128]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 125
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S96x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S50000x128, .f32⟩
  | .hbm, ⟨14, _⟩ => ⟨S_, .f32⟩
  | .hbm, ⟨15, _⟩ => ⟨S50000, .f32⟩
  | .hbm, ⟨16, _⟩ => ⟨S_, .i32⟩
  | .hbm, ⟨17, _⟩ => ⟨S850000, .i32⟩
  | .hbm, ⟨18, _⟩ => ⟨S850000, .i1⟩
  | .hbm, ⟨19, _⟩ => ⟨S_, .i32⟩
  | .hbm, ⟨20, _⟩ => ⟨S850000, .i32⟩
  | .hbm, ⟨21, _⟩ => ⟨S850000, .i32⟩
  | .hbm, ⟨22, _⟩ => ⟨S850000, .i32⟩
  | .hbm, ⟨23, _⟩ => ⟨S850000x1, .i32⟩
  | .hbm, ⟨24, _⟩ => ⟨S_, .f32⟩
  | .hbm, ⟨25, _⟩ => ⟨S850000, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x128, .f32⟩
  | .hbm, ⟨70, _⟩ => ⟨S_, .f32⟩
  | .hbm, ⟨71, _⟩ => ⟨S50000, .f32⟩
  | .hbm, ⟨72, _⟩ => ⟨S_, .i32⟩
  | .hbm, ⟨73, _⟩ => ⟨S850000, .i32⟩
  | .hbm, ⟨74, _⟩ => ⟨S850000, .i1⟩
  | .hbm, ⟨75, _⟩ => ⟨S_, .i32⟩
  | .hbm, ⟨76, _⟩ => ⟨S850000, .i32⟩
  | .hbm, ⟨77, _⟩ => ⟨S850000, .i32⟩
  | .hbm, ⟨78, _⟩ => ⟨S850000, .i32⟩
  | .hbm, ⟨79, _⟩ => ⟨S850000x1, .i32⟩
  | .hbm, ⟨80, _⟩ => ⟨S_, .f32⟩
  | .hbm, ⟨81, _⟩ => ⟨S850000, .f32⟩
  | .hbm, ⟨82, _⟩ => ⟨S50000, .f32⟩
  | .hbm, ⟨83, _⟩ => ⟨S50000, .f32⟩
  | .hbm, ⟨84, _⟩ => ⟨S_, .i32⟩
  | .hbm, ⟨85, _⟩ => ⟨S850000, .i32⟩
  | .hbm, ⟨86, _⟩ => ⟨S850000, .i1⟩
  | .hbm, ⟨87, _⟩ => ⟨S_, .i32⟩
  | .hbm, ⟨88, _⟩ => ⟨S850000, .i32⟩
  | .hbm, ⟨89, _⟩ => ⟨S850000, .i32⟩
  | .hbm, ⟨90, _⟩ => ⟨S850000, .i32⟩
  | .hbm, ⟨91, _⟩ => ⟨S850000x1, .i32⟩
  | .hbm, ⟨92, _⟩ => ⟨S850000, .f32⟩
  | .hbm, ⟨93, _⟩ => ⟨S_, .i32⟩
  | .hbm, ⟨94, _⟩ => ⟨S850000, .i32⟩
  | .hbm, ⟨95, _⟩ => ⟨S850000, .i1⟩
  | .hbm, ⟨96, _⟩ => ⟨S_, .i32⟩
  | .hbm, ⟨97, _⟩ => ⟨S850000, .i32⟩
  | .hbm, ⟨98, _⟩ => ⟨S850000, .i32⟩
  | .hbm, ⟨99, _⟩ => ⟨S850000, .i32⟩
  | .hbm, ⟨100, _⟩ => ⟨S850000x1, .i32⟩
  | .hbm, ⟨101, _⟩ => ⟨S850000, .f32⟩
  | .hbm, ⟨102, _⟩ => ⟨S850000, .f32⟩
  | .hbm, ⟨103, _⟩ => ⟨S_, .i32⟩
  | .hbm, ⟨104, _⟩ => ⟨S850000, .i32⟩
  | .hbm, ⟨105, _⟩ => ⟨S850000, .i1⟩
  | .hbm, ⟨106, _⟩ => ⟨S_, .i32⟩
  | .hbm, ⟨107, _⟩ => ⟨S850000, .i32⟩
  | .hbm, ⟨108, _⟩ => ⟨S850000, .i32⟩
  | .hbm, ⟨109, _⟩ => ⟨S850000, .i32⟩
  | .hbm, ⟨110, _⟩ => ⟨S850000x1, .i32⟩
  | .hbm, ⟨111, _⟩ => ⟨S850000x128, .f32⟩
  | .hbm, ⟨112, _⟩ => ⟨S850000x1, .f32⟩
  | .hbm, ⟨113, _⟩ => ⟨S850000x128, .f32⟩
  | .hbm, ⟨114, _⟩ => ⟨S850000x128, .f32⟩
  | .hbm, ⟨115, _⟩ => ⟨S_, .f32⟩
  | .hbm, ⟨116, _⟩ => ⟨S50000x128, .f32⟩
  | .hbm, ⟨117, _⟩ => ⟨S850000x1, .i32⟩
  | .hbm, ⟨118, _⟩ => ⟨S50000x128, .f32⟩
  | .hbm, ⟨119, _⟩ => ⟨S1x128, .f32⟩
  | .hbm, ⟨120, _⟩ => ⟨S50000x128, .f32⟩
  | .hbm, ⟨121, _⟩ => ⟨S50000x128, .f32⟩
  | .hbm, ⟨122, _⟩ => ⟨S_, .f32⟩
  | .hbm, ⟨123, _⟩ => ⟨S50000x128, .f32⟩
  | .hbm, ⟨124, _⟩ => ⟨S50000x128, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_6 : Ref sig .tc := ⟨.hbm, 47, rfl⟩
abbrev main_v33 : Ref sig .tc := ⟨.hbm, 48, rfl⟩
abbrev main_v34 : Ref sig .tc := ⟨.hbm, 49, rfl⟩
abbrev main_c_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_call0_cst : Ref sig .tc := ⟨.hbm, 66, rfl⟩
abbrev main_call0_v0 : Ref sig .tc := ⟨.hbm, 67, rfl⟩
abbrev main_v49 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_c_10 : Ref sig .tc := ⟨.hbm, 72, rfl⟩
abbrev main_v52 : Ref sig .tc := ⟨.hbm, 73, rfl⟩
abbrev main_v53 : Ref sig .tc := ⟨.hbm, 74, rfl⟩
abbrev main_c_11 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_c_13 : Ref sig .tc := ⟨.hbm, 84, rfl⟩
abbrev main_v61 : Ref sig .tc := ⟨.hbm, 85, rfl⟩
abbrev main_v62 : Ref sig .tc := ⟨.hbm, 86, rfl⟩
abbrev main_c_14 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_c_15 : Ref sig .tc := ⟨.hbm, 93, rfl⟩
abbrev main_v68 : Ref sig .tc := ⟨.hbm, 94, rfl⟩
abbrev main_v69 : Ref sig .tc := ⟨.hbm, 95, rfl⟩
abbrev main_c_16 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_c_17 : Ref sig .tc := ⟨.hbm, 103, rfl⟩
abbrev main_v76 : Ref sig .tc := ⟨.hbm, 104, rfl⟩
abbrev main_v77 : Ref sig .tc := ⟨.hbm, 105, rfl⟩
abbrev main_c_18 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_19 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_call1_cst : Ref sig .tc := ⟨.hbm, 122, rfl⟩
abbrev main_call1_v0 : Ref sig .tc := ⟨.hbm, 123, rfl⟩
abbrev main_v92 : Ref sig .tc := ⟨.hbm, 124, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S_S850000 : S_.BroadcastsInDim S850000 (![] : Fin 0 → Fin S850000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x96_S96x128_S50000x128_1_0_0_1_n_n_wf : DotDims.WF S50000x96 S96x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x128_S50000x128_1_0_0_1_n_n_wf : DotDims.WF S50000x128 S128x128 S50000x128 [1] [0] [0] [1] [] []

variable [Facts₀]

def dot_S50000x96_S96x128_S50000x128_1_0_0_1_n_n : DotDims S50000x96 S96x128 S50000x128 where
  lhsContracting := [1]
  rhsContracting := [0]
  lhsNonContracting := [0]
  rhsNonContracting := [1]
  lhsBatch := []
  rhsBatch := []
  wf := dot_S50000x96_S96x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KRun.lean ====
/-
  The idealized kernel's run with its result named.

  The run of the whole program is a chain of seven segments (stretches of host operations and the four pipelined
  regions); at the last boundary every buffer holds what the fold of those segments over the launch memory leaves in
  it. The statement below keeps, beside the six argument arrays, the result array: it ends at the last boundary's
  contents of its buffer. What those contents are, as a function of the arguments, is read off the fold elsewhere.
-/
import proofs.«129850_j670014898400_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the last
    boundary's contents and the argument arrays end as launched. -/
theorem run_named : θ_run defs (onTc (τ := τ) (main (F := F))) ⟨m, fun _ => 0, ρ⟩ (fun r => ∀ c : Dev nD,
      r.2.mem ((c.tc : Thread nD τ).loc main_v63) = W7 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v63 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Named

end
-- ==== Proof.LibMatmul.lean ====
/-
  A rank-2 matrix product read at an index, at the exact extended reals: when the dimension numbers contract the
  left operand's column axis with the right operand's row axis and keep the other two axes in order, the product
  accumulated into zeros is, at row `p` and column `q`, the sum over `k` of `lhs (p, k) · rhs (k, q)` — a sum over
  the contracted extent itself, not over the contraction's own index type.
-/
import Idealize.ShloMosaic.PureOps.Ideal.Laws
import Idealize.ShloMosaic.Lib.ValueIdx

noncomputable section

namespace Cert.LibMatmul

open Idealize.ShloMosaic Idealize.ShloMosaic.ValueIdx

/-- A product `[a, K] × [K, b] → [a, b]` into a zero accumulator, at an output index `j`: the four coordinate facts
    say which operand entries the dimension numbers pair at the contraction index (the left one at `(j 0, k)`, the
    right one at `(k, j 1)`); the contraction has one axis, of extent `K`, and the sum is re-indexed along it. -/
theorem matmul_zero_ix2 {a K b : Nat} {φ₁ φ₂ : FTy}
    (d : DotDims ⟨2, ![a, K]⟩ ⟨2, ![K, b]⟩ ⟨2, ![a, b]⟩) (prec : Option ContractPrecision)
    (hr : d.contr.rank = 1) (hs : d.contr.size ⟨0, by omega⟩ = K)
    (hl0 : ∀ j q, (d.lhsIdx j q 0).val = (j 0).val)
    (hl1 : ∀ j q, (d.lhsIdx j q 1).val = (q ⟨0, by omega⟩).val)
    (hr0 : ∀ j q, (d.rhsIdx j q 0).val = (q ⟨0, by omega⟩).val)
    (hr1 : ∀ j q, (d.rhsIdx j q 1).val = (j 1).val)
    (lhs : FVec Ideal ⟨2, ![a, K]⟩ φ₁) (rhs : FVec Ideal ⟨2, ![K, b]⟩ φ₂) (j : (⟨2, ![a, b]⟩ : Shape).Idx) :
    FloatOps.matmul d prec lhs rhs (constant ⟨2, ![a, b]⟩ .f32 0x00000000#32) j
      = ∑ k : Fin K, lhs (ix2 (j 0) k) * rhs (ix2 k (j 1)) := by
  rw [Ideal.matmul_constant_zero_apply, ← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun x => Fin.ext (by
    match x with
    | ⟨0, _⟩ => exact hl0 _ _
    | ⟨1, _⟩ => exact (hl1 _ _).trans hk)
  have er : d.rhsIdx j ((contrEquiv1 d K hr hs).symm k) = ix2 k (j 1) := funext fun x => Fin.ext (by
    match x with
    | ⟨0, _⟩ => exact (hr0 _ _).trans hk
    | ⟨1, _⟩ => exact hr1 _ _)
  rw [el, er]
  rfl

end Cert.LibMatmul

end
-- ==== Proof.Body.lean ====
/-
  The four kernel bodies read at one entry, over the exact extended reals.

  Two of the bodies multiply a band of 2000 rows by a whole weight matrix: the entry at row `p`, column `q` of the
  product is the sum over the contracted axis of `x (p, k) · w (k, q)` (rounding the operands to a shorter float
  format first changes nothing at the exact reals, and the accumulator starts at zero). The other two add a row of
  biases to every row of the band and clamp at zero from below: the entry at `(p, q)` is `max (x (p, q) + b (0, q)) 0`.
-/
import proofs.«129850_j670014898400_1_alg».proof.Proof.Gen.KernelIdeal.Skeleton
import proofs.«129850_j670014898400_1_alg».proof.Proof.LibMatmul
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-- The first product's entry: a sum over the 96 input channels. -/
theorem mm96_apply (x : Vec Ideal S2000x96 .f32) (w : Vec Ideal S96x128 .f32) (p : Fin 2000) (q : Fin 128) :
    k0_pay1 (F := Ideal) x w (ix2 p q) = ∑ k : Fin 96, x (ix2 p k) * w (ix2 k q) := by
  unfold k0_pay1
  exact Cert.LibMatmul.matmul_zero_ix2 dot_S2000x96_S96x128_S2000x128_1_0_0_1_n_n none rfl rfl
    (fun j c => by
      unfold DotDims.lhsIdx
      rw [dif_neg (show ¬(0 : Fin S2000x96.rank) ∈ dot_S2000x96_S96x128_S2000x128_1_0_0_1_n_n.lhsBatch by decide),
        dif_pos (show (0 : Fin S2000x96.rank) ∈ dot_S2000x96_S96x128_S2000x128_1_0_0_1_n_n.lhsNonContracting by decide)]
      rfl)
    (fun j c => dot_S2000x96_S96x128_S2000x128_1_0_0_1_n_n.lhsIdx_val_of_single rfl j c)
    (fun j c => dot_S2000x96_S96x128_S2000x128_1_0_0_1_n_n.rhsIdx_val_of_single rfl j c)
    (fun j c => by
      unfold DotDims.rhsIdx
      rw [dif_neg (show ¬(1 : Fin S96x128.rank) ∈ dot_S2000x96_S96x128_S2000x128_1_0_0_1_n_n.rhsBatch by decide),
        dif_pos (show (1 : Fin S96x128.rank) ∈ dot_S2000x96_S96x128_S2000x128_1_0_0_1_n_n.rhsNonContracting by decide)]
      rfl)
    _ _ (ix2 p q)

/-- The second product's entry: a sum over the 128 hidden channels. -/
theorem mm128_apply (x : Vec Ideal S2000x128 .f32) (w : Vec Ideal S128x128 .f32) (p : Fin 2000) (q : Fin 128) :
    k2_pay1 (F := Ideal) x w (ix2 p q) = ∑ k : Fin 128, x (ix2 p k) * w (ix2 k q) := by
  unfold k2_pay1
  refine (Cert.LibMatmul.matmul_zero_ix2 dot_S2000x128_S128x128_S2000x128_1_0_0_1_n_n none rfl rfl
    (fun j c => by
      unfold DotDims.lhsIdx
      rw [dif_neg (show ¬(0 : Fin S2000x128.rank) ∈ dot_S2000x128_S128x128_S2000x128_1_0_0_1_n_n.lhsBatch by decide),
        dif_pos (show (0 : Fin S2000x128.rank) ∈ dot_S2000x128_S128x128_S2000x128_1_0_0_1_n_n.lhsNonContracting by decide)]
      rfl)
    (fun j c => dot_S2000x128_S128x128_S2000x128_1_0_0_1_n_n.lhsIdx_val_of_single rfl j c)
    (fun j c => dot_S2000x128_S128x128_S2000x128_1_0_0_1_n_n.rhsIdx_val_of_single rfl j c)
    (fun j c => by
      unfold DotDims.rhsIdx
      rw [dif_neg (show ¬(1 : Fin S128x128.rank) ∈ dot_S2000x128_S128x128_S2000x128_1_0_0_1_n_n.rhsBatch by decide),
        dif_pos (show (1 : Fin S128x128.rank) ∈ dot_S2000x128_S128x128_S2000x128_1_0_0_1_n_n.rhsNonContracting by decide)]
      rfl)
    _ _ (ix2 p q)).trans ?_
  refine Finset.sum_congr rfl fun k _ => ?_
  show shapeCast S2000x128 x shapeCasts_S2000x128_S2000x128 (ix2 p k) * w (ix2 k q) = x (ix2 p k) * w (ix2 k q)
  rw [shapeCast_self]

/-- The first bias-and-clamp body's entry. -/
theorem biasRelu1_apply (x : FVec Ideal S2000x128 .f32) (b : FVec Ideal S1x128 .f32) (p : Fin 2000) (q : Fin 128) :
    k1_pay1 (F := Ideal) x b (ix2 p q)
      = FloatOps.maximumf (FloatOps.addf (x (ix2 p q)) (b (ix2 (0 : Fin 1) q))) (FloatOps.ofBits .f32 0x00000000#32) := by
  unfold k1_pay1
  show FloatOps.maximumf (FloatOps.addf (shapeCast S2000x128 x shapeCasts_S2000x128_S2000x128 (ix2 p q))
      (broadcastTo S2000x128 (shapeCast S1x128 b shapeCasts_S1x128_S1x128) broadcasts_S1x128_S2000x128 (ix2 p q))) _ = _
  rw [shapeCast_self, shapeCast_self, broadcastTo_1b_ab_apply]
  rfl

/-- The second bias-and-clamp body's entry. -/
theorem biasRelu3_apply (x : FVec Ideal S2000x128 .f32) (b : FVec Ideal S1x128 .f32) (p : Fin 2000) (q : Fin 128) :
    k3_pay1 (F := Ideal) x b (ix2 p q)
      = FloatOps.maximumf (FloatOps.addf (x (ix2 p q)) (b (ix2 (0 : Fin 1) q))) (FloatOps.ofBits .f32 0x00000000#32) := by
  unfold k3_pay1
  show FloatOps.maximumf (FloatOps.addf (shapeCast S2000x128 x shapeCasts_S2000x128_S2000x128 (ix2 p q))
      (broadcastTo S2000x128 (shapeCast S1x128 b shapeCasts_S1x128_S1x128) broadcasts_S1x128_S2000x128 (ix2 p q))) _ = _
  rw [shapeCast_self, shapeCast_self, broadcastTo_1b_ab_apply]
  rfl

end Cert.KernelIdeal.Body

end
-- ==== Proof.LibDotGeneral.lean ====
/-
  The host's rank-2 `dot_general` read at an index, at the exact extended reals: when the dimension numbers contract the
  left operand's column axis with the right operand's row axis and keep the other two axes in order, the product is, at
  row `p` and column `q`, the sum over `k` of `lhs (p, k) · rhs (k, q)`, whatever the schedule key — a sum over the
  contracted extent itself, not over the contraction's own index type.
-/
import Idealize.ShloMosaic.PureOps.Ideal.Laws
import Idealize.ShloMosaic.Lib.ValueIdx

noncomputable section

namespace Cert.LibDotGeneral

open Idealize.ShloMosaic Idealize.ShloMosaic.ValueIdx

/-- A product `[a, K] × [K, b] → [a, b]` on the host, at an output index `j`: the four coordinate facts say which operand
    entries the dimension numbers pair at the contraction index; the contraction has one axis, of extent `K`, and the sum
    is re-indexed along it. -/
theorem dotGeneral_ix2 {a K b : Nat} {φ₁ φ₂ : FTy}
    (d : DotDims ⟨2, ![a, K]⟩ ⟨2, ![K, b]⟩ ⟨2, ![a, b]⟩) (prec : Option ContractPrecision) (sched : HostSchedule)
    (hr : d.contr.rank = 1) (hs : d.contr.size ⟨0, by omega⟩ = K)
    (hl0 : ∀ j q, (d.lhsIdx j q 0).val = (j 0).val)
    (hl1 : ∀ j q, (d.lhsIdx j q 1).val = (q ⟨0, by omega⟩).val)
    (hr0 : ∀ j q, (d.rhsIdx j q 0).val = (q ⟨0, by omega⟩).val)
    (hr1 : ∀ j q, (d.rhsIdx j q 1).val = (j 1).val)
    (lhs : FVec Ideal ⟨2, ![a, K]⟩ φ₁) (rhs : FVec Ideal ⟨2, ![K, b]⟩ φ₂) (j : (⟨2, ![a, b]⟩ : Shape).Idx) :
    FloatOps.dotGeneral d prec sched lhs rhs j = ∑ k : Fin K, lhs (ix2 (j 0) k) * rhs (ix2 k (j 1)) := by
  rw [Ideal.dotGeneral_apply, ← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun x => Fin.ext (by
    match x with
    | ⟨0, _⟩ => exact hl0 _ _
    | ⟨1, _⟩ => exact (hl1 _ _).trans hk)
  have er : d.rhsIdx j ((contrEquiv1 d K hr hs).symm k) = ix2 k (j 1) := funext fun x => Fin.ext (by
    match x with
    | ⟨0, _⟩ => exact (hr0 _ _).trans hk
    | ⟨1, _⟩ => exact hr1 _ _)
  rw [el, er]
  rfl

end Cert.LibDotGeneral

end
-- ==== Proof.Block0.lean ====
/-
  Region 0 of the kernel's program, read as one function of the arrays it finds.

  The region's grid has 25 points; point `t` stages rows `2000·t … 2000·t + 1999` of the left operand and the whole
  96 × 128 weight matrix, multiplies them into a zero accumulator, and writes the band back to the same rows of the result.
  At the exact reals each entry of the band is the sum over the contracted axis of `x (r, k) · w (k, j)`, which is the
  entry at the same place of the host's matrix product of the two whole arrays; the 25 bands tile the result, so the
  result array is that product.
-/
import proofs.«129850_j670014898400_1_alg».proof.Proof.Gen.KernelIdeal.Frame
import proofs.«129850_j670014898400_1_alg».proof.Proof.Gen.ReferenceIdeal.Read
import proofs.«129850_j670014898400_1_alg».proof.Proof.Body
import proofs.«129850_j670014898400_1_alg».proof.Proof.LibDotGeneral
import Idealize.ShloMosaic.Lib.Pipeline.Value

set_option maxRecDepth 16384

noncomputable section

namespace Cert.KernelIdeal.Blocks0

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! The arrays the regions find, at their literal types. -/
abbrev xArr (c : Dev nD) : FVec Ideal S50000x96 .f32 := V c main_arg0
abbrev w1Arr (c : Dev nD) : FVec Ideal S96x128 .f32 := V c main_arg2
abbrev w2Arr (c : Dev nD) : FVec Ideal S128x128 .f32 := V c main_arg4
abbrev agg1Arr (c : Dev nD) : FVec Ideal S50000x128 .f32 := V c main_v45
abbrev b1Arr (c : Dev nD) : FVec Ideal S1x128 .f32 := V c main_v46
abbrev hArr (c : Dev nD) : FVec Ideal S50000x128 .f32 := V c main_v47
abbrev agg2Arr (c : Dev nD) : FVec Ideal S50000x128 .f32 := V c main_v61
abbrev b2Arr (c : Dev nD) : FVec Ideal S1x128 .f32 := V c main_v62

/-! ## Region 0: a band of 2000 rows times the whole weight matrix -/

/-- Where the windows' blocks sit: the row band of point `t` starts at row `2000 · t`, the weights are one block. -/
theorem idx_facts0 : ∀ t : Fin cfg0.N, win0_0.index t (0 : Fin 2) = t.val
    ∧ win0_0.index t (1 : Fin 2) = 0 ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product of the two arrays the region finds. -/
theorem flushed0 (c : Dev nD) (t : Fin cfg0.N) :
    (dat0 V c).flushed 2 t = ((cfg0.win 2).blk t).view.read (Elt Ideal)
      (Host.dotGeneral (F := Ideal) (φ₁ := .f32) (φ₂ := .f32) Cert.ReferenceIdeal.dot_S50000x96_S96x128_S50000x128_1_0_0_1_n_n none (xArr V c) (w1Arr V c)) := by
  show (cfg0.win 2).cut (grid0.coords t) ((dat0 V c).after 2 t) = _
  rw [after0_2]
  unfold out0_2
  rw [View.canon_unit_zero hz]
  simp only [View.ld_unit_zero (S := S2000x96) hz, View.ld_unit_zero (S := S96x128) hz]
  obtain ⟨e0, e1, e2, e3, e4, e5⟩ := idx_facts0 t
  funext y
  obtain ⟨p, q, rfl⟩ : ∃ (p : Fin 2000) (q : Fin 128), y = ix2 p q := ⟨y 0, y 1, eq_ix2 y⟩
  show k0_pay1 (F := Ideal) (iblk0 V c 0 t) (iblk0 V c 1 t) (ix2 p q)
    = Host.dotGeneral (F := Ideal) (φ₁ := .f32) (φ₂ := .f32) Cert.ReferenceIdeal.dot_S50000x96_S96x128_S50000x128_1_0_0_1_n_n none (xArr V c) (w1Arr V c) (((cfg0.win 2).blk t).view.emb (ix2 p q))
  refine (Body.mm96_apply (iblk0 V c 0 t) (iblk0 V c 1 t) p q).trans ?_
  refine Eq.trans ?_ (Cert.LibDotGeneral.dotGeneral_ix2 Cert.ReferenceIdeal.dot_S50000x96_S96x128_S50000x128_1_0_0_1_n_n none _ rfl rfl
    Cert.ReferenceIdeal.Read.lhs_main_v7_0 Cert.ReferenceIdeal.Read.lhs_main_v7_1 Cert.ReferenceIdeal.Read.rhs_main_v7_0 Cert.ReferenceIdeal.Read.rhs_main_v7_1
    (xArr V c) (w1Arr V c) (((cfg0.win 2).blk t).view.emb (ix2 p q))).symm
  refine Finset.sum_congr rfl fun k _ => ?_
  have hl : ((cfg0.win 0).blk t).view.emb (ix2 p k) = ix2 ((((cfg0.win 2).blk t).view.emb (ix2 p q)) 0) k := by
    funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 96 + 1 * k.val = k.val; omega
  have hr : ((cfg0.win 1).blk t).view.emb (ix2 k q) = ix2 k ((((cfg0.win 2).blk t).view.emb (ix2 p q)) 1) := by
    funext a; apply Fin.ext
    match a with
    | ⟨0, _⟩ => show win0_1.index t (0 : Fin 2) * 96 + 1 * k.val = k.val; omega
    | ⟨1, _⟩ => show win0_1.index t (1 : Fin 2) * 128 + 1 * q.val = win0_2.index t (1 : Fin 2) * 128 + 1 * q.val; omega
  show xArr V c (((cfg0.win 0).blk t).view.emb (ix2 p k)) * w1Arr V c (((cfg0.win 1).blk t).view.emb (ix2 k q)) = _
  rw [hl, hr]
  all_goals rfl

/-- An index of the result array is in point `t`'s block iff each coordinate is in the block's range on its axis. -/
theorem mem_blk0 (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v32).slice (win0_2.rect t)).set ↔ _
  rw [View.set_slice_whole, Rect.mem_set_unit]
  exact Iff.rfl

/-- The 25 row bands tile the result array: row `r` lies in the band of point `r / 2000`. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  let t : Fin cfg0.N := ⟨(i 0).val / 2000, by show (i 0).val / 2000 < 25; omega⟩
  obtain ⟨e0, e1, e2, e3, e4, e5⟩ := idx_facts0 t
  have ht : t.val = (i 0).val / 2000 := rfl
  refine ⟨t, flush0_2 t, ?_⟩
  rw [mem_blk0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- The result array after the region: the whole product, as the host's own matrix product of the two arrays. -/
theorem final0 (c : Dev nD) :
    (dat0 V c).arrAt 2 cfg0.N
      = Host.dotGeneral (F := Ideal) (φ₁ := .f32) (φ₂ := .f32) Cert.ReferenceIdeal.dot_S50000x96_S96x128_S50000x128_1_0_0_1_n_n none (xArr V c) (w1Arr V c) :=
  (dat0 V c).arrAt_eq_of_cover 2 _ (fun t _ => flushed0 V c t) (cover0)

end Cert.KernelIdeal.Blocks0

end
-- ==== Proof.Block1.lean ====
/-
  Region 1 of the kernel's program, read as one function of the arrays it finds.

  The region's grid has 25 points; point `t` stages rows `2000·t … 2000·t + 1999` of the aggregate and the one bias
  row, adds the bias to every row, takes the maximum with zero, and writes the band back to the same rows of the
  result. Entry `(r, j)` of the result is `max (a (r, j) + b (0, j)) 0`; the 25 bands tile the result array.
-/
import proofs.«129850_j670014898400_1_alg».proof.Proof.Gen.KernelIdeal.Frame
import proofs.«129850_j670014898400_1_alg».proof.Proof.Gen.ReferenceIdeal.Read
import proofs.«129850_j670014898400_1_alg».proof.Proof.Body
import proofs.«129850_j670014898400_1_alg».proof.Proof.LibDotGeneral
import Idealize.ShloMosaic.Lib.Pipeline.Value

set_option maxRecDepth 16384

noncomputable section

namespace Cert.KernelIdeal.Blocks1

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! The arrays the regions find, at their literal types. -/
abbrev xArr (c : Dev nD) : FVec Ideal S50000x96 .f32 := V c main_arg0
abbrev w1Arr (c : Dev nD) : FVec Ideal S96x128 .f32 := V c main_arg2
abbrev w2Arr (c : Dev nD) : FVec Ideal S128x128 .f32 := V c main_arg4
abbrev agg1Arr (c : Dev nD) : FVec Ideal S50000x128 .f32 := V c main_v45
abbrev b1Arr (c : Dev nD) : FVec Ideal S1x128 .f32 := V c main_v46
abbrev hArr (c : Dev nD) : FVec Ideal S50000x128 .f32 := V c main_v47
abbrev agg2Arr (c : Dev nD) : FVec Ideal S50000x128 .f32 := V c main_v61
abbrev b2Arr (c : Dev nD) : FVec Ideal S1x128 .f32 := V c main_v62

/-! ## Region 1: a bias row added to a band of 2000 rows, clamped at zero from below -/

/-- Where the windows' blocks sit: the input and output bands of point `t` start at row `2000 · t`, the bias row is
    one block. -/
theorem idx_facts1 : ∀ t : Fin cfg1.N, win1_0.index t (0 : Fin 2) = t.val
    ∧ win1_0.index t (1 : Fin 2) = 0 ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The region's result as one function of the two arrays it finds: entry `(r, j)` is `max (a (r, j) + b (0, j)) 0`. -/
def biasRelu1 (a : S50000x128.Idx → Ideal .f32) (b : S1x128.Idx → Ideal .f32) : S50000x128.Idx → Ideal .f32 :=
  fun i => FloatOps.maximumf (FloatOps.addf (a i) (b (ix2 (0 : Fin 1) (⟨(i 1).val, (i 1).isLt⟩ : Fin 128))))
    (FloatOps.ofBits .f32 0x00000000#32)

/-- What point `t` writes back is block `t` of that function of the two arrays the region finds. -/
theorem flushed1 (c : Dev nD) (t : Fin cfg1.N) :
    (dat1 V c).flushed 2 t = ((cfg1.win 2).blk t).view.read (Elt Ideal) (biasRelu1 (agg1Arr V c) (b1Arr V c)) := by
  show (cfg1.win 2).cut (grid1.coords t) ((dat1 V c).after 2 t) = _
  rw [after1_2]
  unfold out1_2
  rw [View.canon_unit_zero hz]
  simp only [View.ld_unit_zero (S := S2000x128) hz, View.ld_unit_zero (S := S1x128) hz]
  obtain ⟨e0, e1, e2, e3, e4, e5⟩ := idx_facts1 t
  funext y
  obtain ⟨p, q, rfl⟩ : ∃ (p : Fin 2000) (q : Fin 128), y = ix2 p q := ⟨y 0, y 1, eq_ix2 y⟩
  show k1_pay1 (F := Ideal) (iblk1 V c 0 t) (iblk1 V c 1 t) (ix2 p q)
    = biasRelu1 (agg1Arr V c) (b1Arr V c) (((cfg1.win 2).blk t).view.emb (ix2 p q))
  refine (Body.biasRelu1_apply (iblk1 V c 0 t) (iblk1 V c 1 t) p q).trans ?_
  have hl : ((cfg1.win 0).blk t).view.emb (ix2 p q) = ((cfg1.win 2).blk t).view.emb (ix2 p q) := by
    funext a; apply Fin.ext
    match a with
    | ⟨0, _⟩ => show win1_0.index t (0 : Fin 2) * 2000 + 1 * p.val = win1_2.index t (0 : Fin 2) * 2000 + 1 * p.val; omega
    | ⟨1, _⟩ => show win1_0.index t (1 : Fin 2) * 128 + 1 * q.val = win1_2.index t (1 : Fin 2) * 128 + 1 * q.val; omega
  have hr : ((cfg1.win 1).blk t).view.emb (ix2 (0 : Fin 1) q)
      = ix2 (0 : Fin 1) (⟨((((cfg1.win 2).blk t).view.emb (ix2 p q)) 1).val, ((((cfg1.win 2).blk t).view.emb (ix2 p q)) 1).isLt⟩ : Fin 128) := by
    funext a; apply Fin.ext
    match a with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega
  show FloatOps.maximumf (FloatOps.addf (agg1Arr V c (((cfg1.win 0).blk t).view.emb (ix2 p q)))
      (b1Arr V c (((cfg1.win 1).blk t).view.emb (ix2 (0 : Fin 1) q)))) (FloatOps.ofBits .f32 0x00000000#32) = _
  rw [hl, hr]
  rfl

/-- An index of the result array is in point `t`'s block iff each coordinate is in the block's range on its axis. -/
theorem mem_blk1 (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v47).slice (win1_2.rect t)).set ↔ _
  rw [View.set_slice_whole, Rect.mem_set_unit]
  exact Iff.rfl

/-- The 25 row bands tile the result array: row `r` lies in the band of point `r / 2000`. -/
theorem cover1 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  let t : Fin cfg1.N := ⟨(i 0).val / 2000, by show (i 0).val / 2000 < 25; omega⟩
  obtain ⟨e0, e1, e2, e3, e4, e5⟩ := idx_facts1 t
  have ht : t.val = (i 0).val / 2000 := rfl
  refine ⟨t, flush1_2 t, ?_⟩
  rw [mem_blk1]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

/-- The result array after the region. -/
theorem final1 (c : Dev nD) :
    (dat1 V c).arrAt 2 cfg1.N = biasRelu1 (agg1Arr V c) (b1Arr V c) :=
  (dat1 V c).arrAt_eq_of_cover 2 _ (fun t _ => flushed1 V c t) (cover1)

end Cert.KernelIdeal.Blocks1

end
-- ==== Proof.Block2.lean ====
/-
  Region 2 of the kernel's program, read as one function of the arrays it finds.

  The region's grid has 25 points; point `t` stages rows `2000·t … 2000·t + 1999` of the left operand and the whole
  128 × 128 weight matrix, multiplies them into a zero accumulator, and writes the band back to the same rows of the result.
  At the exact reals each entry of the band is the sum over the contracted axis of `x (r, k) · w (k, j)`, which is the
  entry at the same place of the host's matrix product of the two whole arrays; the 25 bands tile the result, so the
  result array is that product.
-/
import proofs.«129850_j670014898400_1_alg».proof.Proof.Gen.KernelIdeal.Frame
import proofs.«129850_j670014898400_1_alg».proof.Proof.Gen.ReferenceIdeal.Read
import proofs.«129850_j670014898400_1_alg».proof.Proof.Body
import proofs.«129850_j670014898400_1_alg».proof.Proof.LibDotGeneral
import Idealize.ShloMosaic.Lib.Pipeline.Value

set_option maxRecDepth 16384

noncomputable section

namespace Cert.KernelIdeal.Blocks2

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! The arrays the regions find, at their literal types. -/
abbrev xArr (c : Dev nD) : FVec Ideal S50000x96 .f32 := V c main_arg0
abbrev w1Arr (c : Dev nD) : FVec Ideal S96x128 .f32 := V c main_arg2
abbrev w2Arr (c : Dev nD) : FVec Ideal S128x128 .f32 := V c main_arg4
abbrev agg1Arr (c : Dev nD) : FVec Ideal S50000x128 .f32 := V c main_v45
abbrev b1Arr (c : Dev nD) : FVec Ideal S1x128 .f32 := V c main_v46
abbrev hArr (c : Dev nD) : FVec Ideal S50000x128 .f32 := V c main_v47
abbrev agg2Arr (c : Dev nD) : FVec Ideal S50000x128 .f32 := V c main_v61
abbrev b2Arr (c : Dev nD) : FVec Ideal S1x128 .f32 := V c main_v62

/-! ## Region 2: a band of 2000 rows times the whole weight matrix -/

/-- Where the windows' blocks sit: the row band of point `t` starts at row `2000 · t`, the weights are one block. -/
theorem idx_facts2 : ∀ t : Fin cfg2.N, win2_0.index t (0 : Fin 2) = t.val
    ∧ win2_0.index t (1 : Fin 2) = 0 ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the whole product of the two arrays the region finds. -/
theorem flushed2 (c : Dev nD) (t : Fin cfg2.N) :
    (dat2 V c).flushed 2 t = ((cfg2.win 2).blk t).view.read (Elt Ideal)
      (Host.dotGeneral (F := Ideal) (φ₁ := .f32) (φ₂ := .f32) Cert.ReferenceIdeal.dot_S50000x128_S128x128_S50000x128_1_0_0_1_n_n none (hArr V c) (w2Arr V c)) := by
  show (cfg2.win 2).cut (grid2.coords t) ((dat2 V c).after 2 t) = _
  rw [after2_2]
  unfold out2_2
  rw [View.canon_unit_zero hz]
  simp only [View.ld_unit_zero (S := S2000x128) hz, View.ld_unit_zero (S := S128x128) hz]
  obtain ⟨e0, e1, e2, e3, e4, e5⟩ := idx_facts2 t
  funext y
  obtain ⟨p, q, rfl⟩ : ∃ (p : Fin 2000) (q : Fin 128), y = ix2 p q := ⟨y 0, y 1, eq_ix2 y⟩
  show k2_pay1 (F := Ideal) (iblk2 V c 0 t) (iblk2 V c 1 t) (ix2 p q)
    = Host.dotGeneral (F := Ideal) (φ₁ := .f32) (φ₂ := .f32) Cert.ReferenceIdeal.dot_S50000x128_S128x128_S50000x128_1_0_0_1_n_n none (hArr V c) (w2Arr V c) (((cfg2.win 2).blk t).view.emb (ix2 p q))
  refine (Body.mm128_apply (iblk2 V c 0 t) (iblk2 V c 1 t) p q).trans ?_
  refine Eq.trans ?_ (Cert.LibDotGeneral.dotGeneral_ix2 Cert.ReferenceIdeal.dot_S50000x128_S128x128_S50000x128_1_0_0_1_n_n none _ rfl rfl
    Cert.ReferenceIdeal.Read.lhs_main_v50_0 Cert.ReferenceIdeal.Read.lhs_main_v50_1 Cert.ReferenceIdeal.Read.rhs_main_v50_0 Cert.ReferenceIdeal.Read.rhs_main_v50_1
    (hArr V c) (w2Arr V c) (((cfg2.win 2).blk t).view.emb (ix2 p q))).symm
  refine Finset.sum_congr rfl fun k _ => ?_
  have hl : ((cfg2.win 0).blk t).view.emb (ix2 p k) = ix2 ((((cfg2.win 2).blk t).view.emb (ix2 p q)) 0) k := by
    funext a; apply Fin.ext
    match a with
    | ⟨0, _⟩ => show win2_0.index t (0 : Fin 2) * 2000 + 1 * p.val = win2_2.index t (0 : Fin 2) * 2000 + 1 * p.val; omega
    | ⟨1, _⟩ => show win2_0.index t (1 : Fin 2) * 128 + 1 * k.val = k.val; omega
  have hr : ((cfg2.win 1).blk t).view.emb (ix2 k q) = ix2 k ((((cfg2.win 2).blk t).view.emb (ix2 p q)) 1) := by
    funext a; apply Fin.ext
    match a with
    | ⟨0, _⟩ => show win2_1.index t (0 : Fin 2) * 128 + 1 * k.val = k.val; omega
    | ⟨1, _⟩ => show win2_1.index t (1 : Fin 2) * 128 + 1 * q.val = win2_2.index t (1 : Fin 2) * 128 + 1 * q.val; omega
  show hArr V c (((cfg2.win 0).blk t).view.emb (ix2 p k)) * w2Arr V c (((cfg2.win 1).blk t).view.emb (ix2 k q)) = _
  rw [hl, hr]
  all_goals rfl

/-- An index of the result array is in point `t`'s block iff each coordinate is in the block's range on its axis. -/
theorem mem_blk2 (t : Fin cfg2.N) (i : S50000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v48).slice (win2_2.rect t)).set ↔ _
  rw [View.set_slice_whole, Rect.mem_set_unit]
  exact Iff.rfl

/-- The 25 row bands tile the result array: row `r` lies in the band of point `r / 2000`. -/
theorem cover2 (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  let t : Fin cfg2.N := ⟨(i 0).val / 2000, by show (i 0).val / 2000 < 25; omega⟩
  obtain ⟨e0, e1, e2, e3, e4, e5⟩ := idx_facts2 t
  have ht : t.val = (i 0).val / 2000 := rfl
  refine ⟨t, flush2_2 t, ?_⟩
  rw [mem_blk2]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 128 ≤ (i 1).val ∧ (i 1).val < win2_2.index t (1 : Fin 2) * 128 + 128; omega

/-- The result array after the region: the whole product, as the host's own matrix product of the two arrays. -/
theorem final2 (c : Dev nD) :
    (dat2 V c).arrAt 2 cfg2.N
      = Host.dotGeneral (F := Ideal) (φ₁ := .f32) (φ₂ := .f32) Cert.ReferenceIdeal.dot_S50000x128_S128x128_S50000x128_1_0_0_1_n_n none (hArr V c) (w2Arr V c) :=
  (dat2 V c).arrAt_eq_of_cover 2 _ (fun t _ => flushed2 V c t) (cover2)

end Cert.KernelIdeal.Blocks2

end
-- ==== Proof.Block3.lean ====
/-
  Region 3 of the kernel's program, read as one function of the arrays it finds.

  The region's grid has 25 points; point `t` stages rows `2000·t … 2000·t + 1999` of the aggregate and the one bias
  row, adds the bias to every row, takes the maximum with zero, and writes the band back to the same rows of the
  result. Entry `(r, j)` of the result is `max (a (r, j) + b (0, j)) 0`; the 25 bands tile the result array.
-/
import proofs.«129850_j670014898400_1_alg».proof.Proof.Gen.KernelIdeal.Frame
import proofs.«129850_j670014898400_1_alg».proof.Proof.Gen.ReferenceIdeal.Read
import proofs.«129850_j670014898400_1_alg».proof.Proof.Body
import proofs.«129850_j670014898400_1_alg».proof.Proof.LibDotGeneral
import Idealize.ShloMosaic.Lib.Pipeline.Value

set_option maxRecDepth 16384

noncomputable section

namespace Cert.KernelIdeal.Blocks3

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! The arrays the regions find, at their literal types. -/
abbrev xArr (c : Dev nD) : FVec Ideal S50000x96 .f32 := V c main_arg0
abbrev w1Arr (c : Dev nD) : FVec Ideal S96x128 .f32 := V c main_arg2
abbrev w2Arr (c : Dev nD) : FVec Ideal S128x128 .f32 := V c main_arg4
abbrev agg1Arr (c : Dev nD) : FVec Ideal S50000x128 .f32 := V c main_v45
abbrev b1Arr (c : Dev nD) : FVec Ideal S1x128 .f32 := V c main_v46
abbrev hArr (c : Dev nD) : FVec Ideal S50000x128 .f32 := V c main_v47
abbrev agg2Arr (c : Dev nD) : FVec Ideal S50000x128 .f32 := V c main_v61
abbrev b2Arr (c : Dev nD) : FVec Ideal S1x128 .f32 := V c main_v62

/-! ## Region 3: a bias row added to a band of 2000 rows, clamped at zero from below -/

/-- Where the windows' blocks sit: the input and output bands of point `t` start at row `2000 · t`, the bias row is
    one block. -/
theorem idx_facts3 : ∀ t : Fin cfg3.N, win3_0.index t (0 : Fin 2) = t.val
    ∧ win3_0.index t (1 : Fin 2) = 0 ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The region's result as one function of the two arrays it finds: entry `(r, j)` is `max (a (r, j) + b (0, j)) 0`. -/
def biasRelu3 (a : S50000x128.Idx → Ideal .f32) (b : S1x128.Idx → Ideal .f32) : S50000x128.Idx → Ideal .f32 :=
  fun i => FloatOps.maximumf (FloatOps.addf (a i) (b (ix2 (0 : Fin 1) (⟨(i 1).val, (i 1).isLt⟩ : Fin 128))))
    (FloatOps.ofBits .f32 0x00000000#32)

/-- What point `t` writes back is block `t` of that function of the two arrays the region finds. -/
theorem flushed3 (c : Dev nD) (t : Fin cfg3.N) :
    (dat3 V c).flushed 2 t = ((cfg3.win 2).blk t).view.read (Elt Ideal) (biasRelu3 (agg2Arr V c) (b2Arr V c)) := by
  show (cfg3.win 2).cut (grid3.coords t) ((dat3 V c).after 2 t) = _
  rw [after3_2]
  unfold out3_2
  rw [View.canon_unit_zero hz]
  simp only [View.ld_unit_zero (S := S2000x128) hz, View.ld_unit_zero (S := S1x128) hz]
  obtain ⟨e0, e1, e2, e3, e4, e5⟩ := idx_facts3 t
  funext y
  obtain ⟨p, q, rfl⟩ : ∃ (p : Fin 2000) (q : Fin 128), y = ix2 p q := ⟨y 0, y 1, eq_ix2 y⟩
  show k3_pay1 (F := Ideal) (iblk3 V c 0 t) (iblk3 V c 1 t) (ix2 p q)
    = biasRelu3 (agg2Arr V c) (b2Arr V c) (((cfg3.win 2).blk t).view.emb (ix2 p q))
  refine (Body.biasRelu3_apply (iblk3 V c 0 t) (iblk3 V c 1 t) p q).trans ?_
  have hl : ((cfg3.win 0).blk t).view.emb (ix2 p q) = ((cfg3.win 2).blk t).view.emb (ix2 p q) := by
    funext a; apply Fin.ext
    match a with
    | ⟨0, _⟩ => show win3_0.index t (0 : Fin 2) * 2000 + 1 * p.val = win3_2.index t (0 : Fin 2) * 2000 + 1 * p.val; omega
    | ⟨1, _⟩ => show win3_0.index t (1 : Fin 2) * 128 + 1 * q.val = win3_2.index t (1 : Fin 2) * 128 + 1 * q.val; omega
  have hr : ((cfg3.win 1).blk t).view.emb (ix2 (0 : Fin 1) q)
      = ix2 (0 : Fin 1) (⟨((((cfg3.win 2).blk t).view.emb (ix2 p q)) 1).val, ((((cfg3.win 2).blk t).view.emb (ix2 p q)) 1).isLt⟩ : Fin 128) := by
    funext a; apply Fin.ext
    match a with
    | ⟨0, _⟩ => show win3_1.index t (0 : Fin 2) * 1 + 1 * 0 = 0; omega
    | ⟨1, _⟩ => show win3_1.index t (1 : Fin 2) * 128 + 1 * q.val = win3_2.index t (1 : Fin 2) * 128 + 1 * q.val; omega
  show FloatOps.maximumf (FloatOps.addf (agg2Arr V c (((cfg3.win 0).blk t).view.emb (ix2 p q)))
      (b2Arr V c (((cfg3.win 1).blk t).view.emb (ix2 (0 : Fin 1) q)))) (FloatOps.ofBits .f32 0x00000000#32) = _
  rw [hl, hr]
  rfl

/-- An index of the result array is in point `t`'s block iff each coordinate is in the block's range on its axis. -/
theorem mem_blk3 (t : Fin cfg3.N) (i : S50000x128.Idx) :
    i ∈ ((cfg3.win 2).blk t).view.set ↔ ∀ a : Fin 2, win3_2.index t a * S2000x128.size a ≤ (i a).val ∧ (i a).val < win3_2.index t a * S2000x128.size a + S2000x128.size a := by
  show i ∈ ((View.whole main_v63).slice (win3_2.rect t)).set ↔ _
  rw [View.set_slice_whole, Rect.mem_set_unit]
  exact Iff.rfl

/-- The 25 row bands tile the result array: row `r` lies in the band of point `r / 2000`. -/
theorem cover3 (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  let t : Fin cfg3.N := ⟨(i 0).val / 2000, by show (i 0).val / 2000 < 25; omega⟩
  obtain ⟨e0, e1, e2, e3, e4, e5⟩ := idx_facts3 t
  have ht : t.val = (i 0).val / 2000 := rfl
  refine ⟨t, flush3_2 t, ?_⟩
  rw [mem_blk3]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 128 ≤ (i 1).val ∧ (i 1).val < win3_2.index t (1 : Fin 2) * 128 + 128; omega

/-- The result array after the region. -/
theorem final3 (c : Dev nD) :
    (dat3 V c).arrAt 2 cfg3.N = biasRelu3 (agg2Arr V c) (b2Arr V c) :=
  (dat3 V c).arrAt_eq_of_cover 2 _ (fun t _ => flushed3 V c t) (cover3)

end Cert.KernelIdeal.Blocks3

end
-- ==== Proof.Step.lean ====
/-
  One aggregation step of the graph convolution, as a function of the edge lists, the edge weights and the
  node features it aggregates.

  Both layers of the reference apply the same step: the rows of the transformed features are gathered at the edges'
  sources (a negative source wrapped around once), every gathered row is scaled by its edge's weight, and the scaled
  rows are summed into the rows the edges' destinations name, starting from zeros. The reference recomputes the edge
  weights for its second layer from the same edge lists by the same operations, so both layers see one weight vector.
-/
import proofs.«129850_j670014898400_1_alg».proof.Proof.Gen.ReferenceIdeal.Read

noncomputable section

namespace Cert.ReferenceIdeal.Step

open Cert.ReferenceIdeal Cert.ReferenceIdeal.Gen Cert.ReferenceIdeal.Read Idealize.ShloMosaic

variable {F : FTy → Type} [FloatOps F]

/-- The step: `out[d] = Σ over edges e with dst e = d of xw[src e] · nrm e`, by the host's gather and scatter-add. -/
def agg (src dst : (⟨S850000, .i32⟩ : BufTy).Contents (Elt F)) (nrm : (⟨S850000, .f32⟩ : BufTy).Contents (Elt F))
    (xw : (⟨S50000x128, .f32⟩ : BufTy).Contents (Elt F)) : (⟨S50000x128, .f32⟩ : BufTy).Contents (Elt F) :=
  Host.scatterAdd scatter_S50000x128_S850000x1_S850000x128_1_0_0_1
    (broadcastInDim S50000x128 ![] bcast_S_S50000x128 (constant S_ .f32 0x00000000#32))
    (broadcastInDim S850000x1 ![0] bcast_S850000_S850000x1_0 dst)
    (mulf (Host.gather gather_S50000x128_S850000x1_S850000x128_1_0_n_n_0_1_1128 xw
            (broadcastInDim S850000x1 ![0] bcast_S850000_S850000x1_0
              (select (cmpi .slt src (broadcastInDim S850000 ![] bcast_S_S850000 (constantI S_ 32 0#32)))
                (addi src (broadcastInDim S850000 ![] bcast_S_S850000 (constantI S_ 32 50000#32))) src)))
          (broadcastInDim S850000x128 ![0, 1] bcast_S850000x1_S850000x128_0_1
            (broadcastInDim S850000x1 ![0] bcast_S850000_S850000x1_0 nrm)))

/-- The first layer's aggregate is the step applied to the first product. -/
theorem val_main_v45_eq (x0 : (⟨S50000x96, .f32⟩ : BufTy).Contents (Elt F)) (x1 : (⟨S2x800000, .i32⟩ : BufTy).Contents (Elt F))
    (x2 : (⟨S96x128, .f32⟩ : BufTy).Contents (Elt F)) :
    val_main_v45 (F := F) x0 x1 x2
      = agg (val_main_v3 (F := F) x1) (val_main_v6 (F := F) x1) (val_main_v32 (F := F) x1) (val_main_v7 (F := F) x0 x2) := rfl

/-- The second layer's aggregate is the same step — with the same edge weights — applied to the second product. -/
theorem val_main_v88_eq (x0 : (⟨S50000x96, .f32⟩ : BufTy).Contents (Elt F)) (x1 : (⟨S2x800000, .i32⟩ : BufTy).Contents (Elt F))
    (x2 : (⟨S96x128, .f32⟩ : BufTy).Contents (Elt F)) (x3 : (⟨S128, .f32⟩ : BufTy).Contents (Elt F))
    (x4 : (⟨S128x128, .f32⟩ : BufTy).Contents (Elt F)) :
    val_main_v88 (F := F) x0 x1 x2 x3 x4
      = agg (val_main_v3 (F := F) x1) (val_main_v6 (F := F) x1) (val_main_v32 (F := F) x1) (val_main_v50 (F := F) x0 x1 x2 x3 x4) := rfl

end Cert.ReferenceIdeal.Step

end
-- ==== Proof.Host.lean ====
/-
  The three stretches of host operations of the kernel's program, each read as a function of the buffers it starts
  from.

  The first stretch builds the edge lists with the self loops appended (sources, destinations) and the edge weights
  (the product of the inverse square roots of the two endpoints' degrees); the second and the fourth apply one
  aggregation step to a product the preceding region left, and lay a bias vector out as one row. Every one of these
  operations also occurs, with the same dimension numbers, in the reference, so each result is stated as the
  reference's own stage applied to the buffers the stretch reads.
-/
import proofs.«129850_j670014898400_1_alg».proof.Proof.Gen.KernelIdeal.Launch
import proofs.«129850_j670014898400_1_alg».proof.Proof.Step
import Idealize.ShloMosaic.Lib.StableHlo.Run

set_option maxRecDepth 16384

noncomputable section

namespace Cert.KernelIdeal.HostRead

open Cert.KernelIdeal Cert.KernelIdeal.Gen Idealize.ShloMosaic Idealize.ShloMosaic.TcCoe Idealize.SL.Sem Idealize.ShloMosaic.StableHlo

variable {F : FTy → Type} [FloatOps F]

/-! ## What each stretch leaves alone -/

/-- The buffers the stretch writes. -/
abbrev hostOps0_W : List (Ref sig .tc) := [main_v0, main_v1, main_v2, main_v3, main_v4, main_v5, main_v6, main_cst, main_v7, main_c, main_v8, main_v9, main_c_0, main_v10, main_v11, main_v12, main_v13, main_cst_1, main_v14, main_v15, main_v16, main_c_2, main_v17, main_v18, main_c_3, main_v19, main_v20, main_v21, main_v22, main_v23, main_c_4, main_v24, main_v25, main_c_5, main_v26, main_v27, main_v28, main_v29, main_v30, main_v31]
theorem hostOps0_writes : (hostOps0 : List (HloOp τ sig (Elt F))).Forall fun op => op.writes ⊆ (hostOps0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the stretch does not write keeps its contents through it. -/
theorem hostOps0_keep (W : Valuation τ sig (Elt F)) (r : Ref sig .tc) (h : r ∉ hostOps0_W) :
    after hostOps0 W (Proc.devRef .tc r) = W (Proc.devRef .tc r) :=
  after_of_writes_sub hostOps0 _ hostOps0_writes h

/-- The buffers the stretch writes. -/
abbrev hostOps1_W : List (Ref sig .tc) := [main_c_6, main_v33, main_v34, main_c_7, main_v35, main_v36, main_v37, main_v38, main_v39, main_v40, main_v41, main_v42, main_cst_8, main_v43, main_v44, main_v45, main_v46]
theorem hostOps1_writes : (hostOps1 : List (HloOp τ sig (Elt F))).Forall fun op => op.writes ⊆ (hostOps1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the stretch does not write keeps its contents through it. -/
theorem hostOps1_keep (W : Valuation τ sig (Elt F)) (r : Ref sig .tc) (h : r ∉ hostOps1_W) :
    after hostOps1 W (Proc.devRef .tc r) = W (Proc.devRef .tc r) :=
  after_of_writes_sub hostOps1 _ hostOps1_writes h

/-- The buffers the stretch writes. -/
abbrev hostOps3_W : List (Ref sig .tc) := [main_c_9, main_v49, main_v50, main_c_10, main_v51, main_v52, main_v53, main_v54, main_v55, main_v56, main_v57, main_v58, main_cst_11, main_v59, main_v60, main_v61, main_v62]
theorem hostOps3_writes : (hostOps3 : List (HloOp τ sig (Elt F))).Forall fun op => op.writes ⊆ (hostOps3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the stretch does not write keeps its contents through it. -/
theorem hostOps3_keep (W : Valuation τ sig (Elt F)) (r : Ref sig .tc) (h : r ∉ hostOps3_W) :
    after hostOps3 W (Proc.devRef .tc r) = W (Proc.devRef .tc r) :=
  after_of_writes_sub hostOps3 _ hostOps3_writes h

/-! ## The first stretch: the edge lists and the edge weights, from the edge index array -/

set_option maxHeartbeats 4000000 in
/-- The sources with the self loops appended. -/
theorem src_after0 (W : Valuation τ sig (Elt F)) :
    after hostOps0 W (Proc.devRef .tc main_v3) = Cert.ReferenceIdeal.Read.val_main_v3 (F := F) (W (Proc.devRef .tc main_arg1)) := by
  after_results_simp <;> rfl

set_option maxHeartbeats 4000000 in
/-- The destinations with the self loops appended. -/
theorem dst_after0 (W : Valuation τ sig (Elt F)) :
    after hostOps0 W (Proc.devRef .tc main_v6) = Cert.ReferenceIdeal.Read.val_main_v6 (F := F) (W (Proc.devRef .tc main_arg1)) := by
  after_results_simp <;> rfl

set_option maxHeartbeats 4000000 in
/-- The edge weights. -/
theorem norm_after0 (W : Valuation τ sig (Elt F)) :
    after hostOps0 W (Proc.devRef .tc main_v31) = Cert.ReferenceIdeal.Read.val_main_v32 (F := F) (W (Proc.devRef .tc main_arg1)) := by
  after_results_simp <;> rfl

/-! ## The second stretch: the first layer's aggregate and its bias row -/

set_option maxHeartbeats 4000000 in
theorem agg_after1 (W : Valuation τ sig (Elt F)) :
    after hostOps1 W (Proc.devRef .tc main_v45)
      = Cert.ReferenceIdeal.Step.agg (F := F) (W (Proc.devRef .tc main_v3)) (W (Proc.devRef .tc main_v6))
          (W (Proc.devRef .tc main_v31)) (W (Proc.devRef .tc main_v32)) := by
  after_results_simp <;> rfl

set_option maxHeartbeats 4000000 in
theorem bias_after1 (W : Valuation τ sig (Elt F)) :
    after hostOps1 W (Proc.devRef .tc main_v46) = shapeCast S1x128 (W (Proc.devRef .tc main_arg3)) shapeCasts_S128_S1x128 := by
  after_results_simp <;> rfl

/-! ## The last stretch: the second layer's aggregate and its bias row -/

set_option maxHeartbeats 4000000 in
theorem agg_after3 (W : Valuation τ sig (Elt F)) :
    after hostOps3 W (Proc.devRef .tc main_v61)
      = Cert.ReferenceIdeal.Step.agg (F := F) (W (Proc.devRef .tc main_v3)) (W (Proc.devRef .tc main_v6))
          (W (Proc.devRef .tc main_v31)) (W (Proc.devRef .tc main_v48)) := by
  after_results_simp <;> rfl

set_option maxHeartbeats 4000000 in
theorem bias_after3 (W : Valuation τ sig (Elt F)) :
    after hostOps3 W (Proc.devRef .tc main_v62) = shapeCast S1x128 (W (Proc.devRef .tc main_arg5)) shapeCasts_S128_S1x128 := by
  after_results_simp <;> rfl

end Cert.KernelIdeal.HostRead

end
-- ==== Proof.Chain.lean ====
/-
  The contents of the kernel's result buffer at the last boundary, as a function of the six arguments.

  The kernel's program alternates stretches of host operations with four pipelined regions. Walking the boundaries
  in order: the first stretch leaves the edge lists and the edge weights; region 0 leaves the product of the node
  features with the first weight matrix; the next stretch aggregates it along the edges; region 1 adds the first bias
  and clamps at zero; region 2 multiplies by the second weight matrix; the last stretch aggregates again — with the
  edge weights computed once, where the reference computes them a second time by the same operations —; region 3
  adds the second bias and clamps. Each boundary's value is the reference's own stage at the same arguments, so the
  last one is the reference's result.
-/
import proofs.«129850_j670014898400_1_alg».proof.Proof.Gen.KernelIdeal.Frame
import proofs.«129850_j670014898400_1_alg».proof.Proof.Block0
import proofs.«129850_j670014898400_1_alg».proof.Proof.Block1
import proofs.«129850_j670014898400_1_alg».proof.Proof.Block2
import proofs.«129850_j670014898400_1_alg».proof.Proof.Block3
import proofs.«129850_j670014898400_1_alg».proof.Proof.Host
import proofs.«129850_j670014898400_1_alg».proof.Proof.Step
import Idealize.ShloMosaic.Lib.ValueLayout

set_option maxRecDepth 16384

noncomputable section

namespace Cert.KernelIdeal.Chain

open Cert.KernelIdeal Cert.KernelIdeal.Gen Idealize.ShloMosaic Idealize.ShloMosaic.TcCoe Idealize.ShloMosaic.ValueIdx Idealize.SL.Sem
open Idealize.ShloMosaic.StableHlo (after)

variable (m : (ℓ : Loc nD τ sig) → Buf (Elt Ideal) ℓ) (ρ : Dev nD → PrngReg) (c : Dev nD)

/-! ## The arguments, at their literal types -/

abbrev aX : (⟨Cert.ReferenceIdeal.S50000x96, .f32⟩ : BufTy).Contents (Elt Ideal) := m ((c : Thread nD τ).loc main_arg0)
abbrev aE : (⟨Cert.ReferenceIdeal.S2x800000, .i32⟩ : BufTy).Contents (Elt Ideal) := m ((c : Thread nD τ).loc main_arg1)
abbrev aW1 : (⟨Cert.ReferenceIdeal.S96x128, .f32⟩ : BufTy).Contents (Elt Ideal) := m ((c : Thread nD τ).loc main_arg2)
abbrev aB1 : (⟨Cert.ReferenceIdeal.S128, .f32⟩ : BufTy).Contents (Elt Ideal) := m ((c : Thread nD τ).loc main_arg3)
abbrev aW2 : (⟨Cert.ReferenceIdeal.S128x128, .f32⟩ : BufTy).Contents (Elt Ideal) := m ((c : Thread nD τ).loc main_arg4)
abbrev aB2 : (⟨Cert.ReferenceIdeal.S128, .f32⟩ : BufTy).Contents (Elt Ideal) := m ((c : Thread nD τ).loc main_arg5)

/-! ## After the first stretch -/

theorem W1_keep (r : Ref sig .tc) (h : r ∉ HostRead.hostOps0_W) :
    W1 m ρ c (Proc.devRef .tc r) = m ((c : Thread nD τ).loc r) :=
  HostRead.hostOps0_keep (W0 m ρ c) r h

theorem W1_src : W1 m ρ c (Proc.devRef .tc main_v3) = Cert.ReferenceIdeal.Read.val_main_v3 (F := Ideal) (aE m c) :=
  HostRead.src_after0 (W0 m ρ c)
theorem W1_dst : W1 m ρ c (Proc.devRef .tc main_v6) = Cert.ReferenceIdeal.Read.val_main_v6 (F := Ideal) (aE m c) :=
  HostRead.dst_after0 (W0 m ρ c)
theorem W1_norm : W1 m ρ c (Proc.devRef .tc main_v31) = Cert.ReferenceIdeal.Read.val_main_v32 (F := Ideal) (aE m c) :=
  HostRead.norm_after0 (W0 m ρ c)

/-! ## After region 0: the first product -/

theorem W2_keep (r : Ref sig .tc) (h : ∀ w, Pipeline.arrRef spec0 w ≠ r) :
    W2 m ρ c (Proc.devRef .tc r) = W1 m ρ c (Proc.devRef .tc r) := W2_of_ne m ρ c r h

theorem W2_xw : W2 m ρ c (Proc.devRef .tc main_v32) = Cert.ReferenceIdeal.Read.val_main_v7 (F := Ideal) (aX m c) (aW1 m c) := by
  refine (W2_arr m ρ c 2).trans ?_
  refine (Blocks0.final0 (V1 m ρ) c).trans ?_
  show Host.dotGeneral (F := Ideal) (φ₁ := .f32) (φ₂ := .f32) Cert.ReferenceIdeal.dot_S50000x96_S96x128_S50000x128_1_0_0_1_n_n none
    (W1 m ρ c (Proc.devRef .tc main_arg0)) (W1 m ρ c (Proc.devRef .tc main_arg2)) = _
  rw [W1_keep m ρ c main_arg0 (by decide), W1_keep m ρ c main_arg2 (by decide)]
  rfl

/-! ## After the second stretch: the first aggregate and the first bias row -/

theorem W3_keep (r : Ref sig .tc) (h : r ∉ HostRead.hostOps1_W) :
    W3 m ρ c (Proc.devRef .tc r) = W2 m ρ c (Proc.devRef .tc r) :=
  HostRead.hostOps1_keep (W2 m ρ c) r h

theorem W3_agg : W3 m ρ c (Proc.devRef .tc main_v45) = Cert.ReferenceIdeal.Read.val_main_v45 (F := Ideal) (aX m c) (aE m c) (aW1 m c) := by
  refine (HostRead.agg_after1 (W2 m ρ c)).trans ?_
  rw [W2_keep m ρ c main_v3 (by decide), W2_keep m ρ c main_v6 (by decide), W2_keep m ρ c main_v31 (by decide),
    W2_xw, W1_src, W1_dst, W1_norm]
  exact (Cert.ReferenceIdeal.Step.val_main_v45_eq _ _ _).symm

theorem W3_bias : W3 m ρ c (Proc.devRef .tc main_v46)
    = shapeCast S1x128 (m ((c : Thread nD τ).loc main_arg3)) shapeCasts_S128_S1x128 := by
  refine (HostRead.bias_after1 (W2 m ρ c)).trans ?_
  rw [W2_keep m ρ c main_arg3 (by decide), W1_keep m ρ c main_arg3 (by decide)]

/-! ## After region 1: the hidden features -/

theorem W4_keep (r : Ref sig .tc) (h : ∀ w, Pipeline.arrRef spec1 w ≠ r) :
    W4 m ρ c (Proc.devRef .tc r) = W3 m ρ c (Proc.devRef .tc r) := W4_of_ne m ρ c r h

/-- A vector laid out as one row, broadcast over the rows and read at `(r, j)`, is the vector at `j` — on both
    sides. -/
theorem biasRelu_eq (a : FVec Ideal S50000x128 .f32) (b : FVec Ideal S128 .f32) (i : S50000x128.Idx) :
    FloatOps.maximumf (F := Ideal) (FloatOps.addf (a i)
        (shapeCast S1x128 b shapeCasts_S128_S1x128 (ix2 (0 : Fin 1) (⟨(i 1).val, (i 1).isLt⟩ : Fin 128))))
      (FloatOps.ofBits .f32 0x00000000#32)
    = FloatOps.maximumf (F := Ideal) (FloatOps.addf (a i) (b (ix1 (⟨(i 1).val, (i 1).isLt⟩ : Fin 128)))) (FloatOps.ofBits .f32 0x00000000#32) := by
  rw [shapeCast_a_1a_apply]

theorem W4_h : W4 m ρ c (Proc.devRef .tc main_v47)
    = Cert.ReferenceIdeal.Read.val_main_v49 (F := Ideal) (aX m c) (aE m c) (aW1 m c) (aB1 m c) := by
  refine (W4_arr m ρ c 2).trans ?_
  refine (Blocks1.final1 (V3 m ρ) c).trans ?_
  show Blocks1.biasRelu1 (W3 m ρ c (Proc.devRef .tc main_v45)) (W3 m ρ c (Proc.devRef .tc main_v46)) = _
  rw [W3_agg, W3_bias]
  funext i
  rw [Cert.ReferenceIdeal.Read.val_main_v49_apply, Cert.ReferenceIdeal.Read.val_main_v48_apply, Cert.ReferenceIdeal.Read.val_main_v47_apply, Cert.ReferenceIdeal.Read.val_main_v46_apply,
    Cert.ReferenceIdeal.Read.val_main_call0_v0_apply, Cert.ReferenceIdeal.Read.val_main_call0_cst_apply]
  unfold Blocks1.biasRelu1
  refine (biasRelu_eq _ (aB1 m c) i).trans ?_
  have hi : Cert.ReferenceIdeal.Read.idx_main_v46 (Cert.ReferenceIdeal.Read.idx_main_v47 i) = ix1 (⟨(i 1).val, (i 1).isLt⟩ : Fin 128) := by
    funext a; match a with | ⟨0, _⟩ => rfl
  rw [hi]

/-! ## After region 2: the second product -/

theorem W5_keep (r : Ref sig .tc) (h : ∀ w, Pipeline.arrRef spec2 w ≠ r) :
    W5 m ρ c (Proc.devRef .tc r) = W4 m ρ c (Proc.devRef .tc r) := W5_of_ne m ρ c r h

theorem W5_xw : W5 m ρ c (Proc.devRef .tc main_v48)
    = Cert.ReferenceIdeal.Read.val_main_v50 (F := Ideal) (aX m c) (aE m c) (aW1 m c) (aB1 m c) (aW2 m c) := by
  refine (W5_arr m ρ c 2).trans ?_
  refine (Blocks2.final2 (V4 m ρ) c).trans ?_
  show Host.dotGeneral (F := Ideal) (φ₁ := .f32) (φ₂ := .f32) Cert.ReferenceIdeal.dot_S50000x128_S128x128_S50000x128_1_0_0_1_n_n none
    (W4 m ρ c (Proc.devRef .tc main_v47)) (W4 m ρ c (Proc.devRef .tc main_arg4)) = _
  rw [W4_h, W4_keep m ρ c main_arg4 (by decide), W3_keep m ρ c main_arg4 (by decide), W2_keep m ρ c main_arg4 (by decide),
    W1_keep m ρ c main_arg4 (by decide)]
  rfl

/-- The edge lists and weights, the second bias: untouched from the first boundary to the fifth. -/
theorem W5_back (r : Ref sig .tc) (h2 : ∀ w, Pipeline.arrRef spec2 w ≠ r) (h1 : ∀ w, Pipeline.arrRef spec1 w ≠ r)
    (h3 : r ∉ HostRead.hostOps1_W) (h0 : ∀ w, Pipeline.arrRef spec0 w ≠ r) :
    W5 m ρ c (Proc.devRef .tc r) = W1 m ρ c (Proc.devRef .tc r) :=
  (W5_keep m ρ c r h2).trans ((W4_keep m ρ c r h1).trans ((W3_keep m ρ c r h3).trans (W2_keep m ρ c r h0)))

/-! ## After the last stretch: the second aggregate and the second bias row -/

theorem W6_agg : W6 m ρ c (Proc.devRef .tc main_v61)
    = Cert.ReferenceIdeal.Read.val_main_v88 (F := Ideal) (aX m c) (aE m c) (aW1 m c) (aB1 m c) (aW2 m c) := by
  refine (HostRead.agg_after3 (W5 m ρ c)).trans ?_
  rw [W5_back m ρ c main_v3 (by decide) (by decide) (by decide) (by decide),
    W5_back m ρ c main_v6 (by decide) (by decide) (by decide) (by decide),
    W5_back m ρ c main_v31 (by decide) (by decide) (by decide) (by decide),
    W5_xw, W1_src, W1_dst, W1_norm]
  exact (Cert.ReferenceIdeal.Step.val_main_v88_eq _ _ _ _ _).symm

theorem W6_bias : W6 m ρ c (Proc.devRef .tc main_v62)
    = shapeCast S1x128 (m ((c : Thread nD τ).loc main_arg5)) shapeCasts_S128_S1x128 := by
  refine (HostRead.bias_after3 (W5 m ρ c)).trans ?_
  rw [W5_back m ρ c main_arg5 (by decide) (by decide) (by decide) (by decide), W1_keep m ρ c main_arg5 (by decide)]

/-! ## After region 3: the result -/

theorem W7_out : W7 m ρ c (Proc.devRef .tc main_v63)
    = Cert.ReferenceIdeal.Read.val_main_v92 (F := Ideal) (aX m c) (aE m c) (aW1 m c) (aB1 m c) (aW2 m c) (aB2 m c) := by
  refine (W7_arr m ρ c 2).trans ?_
  refine (Blocks3.final3 (V6 m ρ) c).trans ?_
  show Blocks3.biasRelu3 (W6 m ρ c (Proc.devRef .tc main_v61)) (W6 m ρ c (Proc.devRef .tc main_v62)) = _
  rw [W6_agg, W6_bias]
  funext i
  rw [Cert.ReferenceIdeal.Read.val_main_v92_apply, Cert.ReferenceIdeal.Read.val_main_v91_apply, Cert.ReferenceIdeal.Read.val_main_v90_apply, Cert.ReferenceIdeal.Read.val_main_v89_apply,
    Cert.ReferenceIdeal.Read.val_main_call1_v0_apply, Cert.ReferenceIdeal.Read.val_main_call1_cst_apply]
  unfold Blocks3.biasRelu3
  refine (biasRelu_eq _ (aB2 m c) i).trans ?_
  have hi : Cert.ReferenceIdeal.Read.idx_main_v89 (Cert.ReferenceIdeal.Read.idx_main_v90 i) = ix1 (⟨(i 1).val, (i 1).isLt⟩ : Fin 128) := by
    funext a; match a with | ⟨0, _⟩ => rfl
  rw [hi]

end Cert.KernelIdeal.Chain

end
-- ==== Proof.lean ====
/-
  A two-layer graph convolution on 50000 nodes and 800000 edges (plus one self loop per node), computed by a program
  of four pipelined kernels and the host operations between them, against the plain array program.

  Both programs compute, for node features `x`, edge lists `(src, dst)` and weights `W1, b1, W2, b2`,
      h   = max (A (x · W1) + b1) 0,      out = max (A (h · W2) + b2) 0,
  where `A` sums, into every destination row, the source rows scaled by `deg(src)^(-1/2) · deg(dst)^(-1/2)`. The gather,
  the scaling and the scatter-add are the same host operations in both programs, with the same dimension numbers; the
  kernel's program computes the edge weights once and the reference twice, by the same operations of the same edge
  lists. What differs is how the dense steps are computed: the kernel's program multiplies bands of 2000 rows by the
  whole weight matrix, into a zero accumulator, after a change of float format that is the identity at the exact
  reals, and adds the bias and clamps band by band; the reference multiplies, adds and clamps whole arrays. A band of
  a matrix product is the product of the band, entry by entry the same sum over the contracted axis, and the bands
  tile the arrays; no law of the extended reals beyond that is used, so the inputs' finiteness is never opened.

  The frames of the two kernel programs are the generated frame certificates; the reference's frame is its generated
  run with the result dropped; the idealization rewrote nothing, so there is nothing to preserve.
-/
import proofs.«129850_j670014898400_1_alg».proof.Defs
import proofs.«129850_j670014898400_1_alg».proof.Proof.Gen.Kernel
import proofs.«129850_j670014898400_1_alg».proof.Proof.Gen.Kernel.Skeleton
import proofs.«129850_j670014898400_1_alg».proof.Proof.Gen.Kernel.Launch
import proofs.«129850_j670014898400_1_alg».proof.Proof.Gen.Kernel.Points
import proofs.«129850_j670014898400_1_alg».proof.Proof.Gen.Kernel.Frame
import proofs.«129850_j670014898400_1_alg».proof.Proof.Gen.KernelIdeal
import proofs.«129850_j670014898400_1_alg».proof.Proof.Gen.KernelIdeal.Skeleton
import proofs.«129850_j670014898400_1_alg».proof.Proof.Gen.KernelIdeal.Launch
import proofs.«129850_j670014898400_1_alg».proof.Proof.Gen.KernelIdeal.Points
import proofs.«129850_j670014898400_1_alg».proof.Proof.Gen.KernelIdeal.Frame
import proofs.«129850_j670014898400_1_alg».proof.Proof.Gen.ReferenceIdeal
import proofs.«129850_j670014898400_1_alg».proof.Proof.Gen.Pre_finite_inputs
import proofs.«129850_j670014898400_1_alg».proof.Proof.Gen.ReferenceIdeal.Run
import proofs.«129850_j670014898400_1_alg».proof.Proof.Gen.ReferenceIdeal.Read
import proofs.«129850_j670014898400_1_alg».proof.Proof.KRun
import proofs.«129850_j670014898400_1_alg».proof.Proof.Chain
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at the reference's last stage of the six arguments: the kernel's by the
    walk through its boundaries, the reference's by its generated run. -/
theorem algebraic : Cert.algebraic_KernelIdeal_ReferenceIdeal := by
  intro m ρ m' ρ' _ hagree
  refine ⟨fun c => Cert.ReferenceIdeal.Read.val_main_v92 (F := Ideal) (Cert.KernelIdeal.Chain.aX m c) (Cert.KernelIdeal.Chain.aE m c)
    (Cert.KernelIdeal.Chain.aW1 m c) (Cert.KernelIdeal.Chain.aB1 m c) (Cert.KernelIdeal.Chain.aW2 m c) (Cert.KernelIdeal.Chain.aB2 m c), ?_, ?_⟩
  · exact (θ_run Cert.KernelIdeal.defs _ _).mono (fun r h c => ⟨(h c).1.trans (Cert.KernelIdeal.Chain.W7_out m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v92_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
